-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x14 : Shape := ⟨2, ![2097152, 14]⟩
abbrev S2097152 : Shape := ⟨1, ![2097152]⟩
abbrev S4x64x14 : Shape := ⟨3, ![4, 64, 14]⟩
abbrev S4x64 : Shape := ⟨2, ![4, 64]⟩
abbrev S_ : Shape := ⟨0, ![]⟩

class Facts : Prop where
  bcast_S_S2097152x14 : S_.BroadcastsInDim S2097152x14 (![] : Fin 0 → Fin S2097152x14.rank)
  reducesTo_S2097152x14_S_d0_1 : S2097152x14.ReducesTo [0, 1] S_
  h_S_ : 0 < S_.numel
  bcast_S_S4x64x14 : S_.BroadcastsInDim S4x64x14 (![] : Fin 0 → Fin S4x64x14.rank)
  reducesTo_S4x64x14_S_d0_1_2 : S4x64x14.ReducesTo [0, 1, 2] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S2097152x14 .f32) (main_arg1 : IVec S2097152 32) (main_arg2 : FVec F S4x64x14 .f32) (main_arg3 : FVec F S4x64 .f32) : IVec S_ 1 :=
  let main_v0 : FVec F S2097152x14 .f32 := Host.absf main_arg0
  let main_cst : FVec F S_ .f32 := constant S_ .f32 0x7F800000#32
  let main_v1 : FVec F S2097152x14 .f32 := broadcastInDim S2097152x14 ![] bcast_S_S2097152x14 main_cst
  let main_v2 : IVec S2097152x14 1 := cmpf .olt main_v0 main_v1
  let main_c : IVec S_ 1 := constantI S_ 1 1#1
  let main_v3 : IVec S_ 1 := (fun x v => Host.reduce IntOp.andi x v reducesTo_S2097152x14_S_d0_1 h_S_) main_v2 main_c
  let main_v4 : FVec F S4x64x14 .f32 := Host.absf main_arg2
  let main_cst_0 : FVec F S_ .f32 := constant S_ .f32 0x7F800000#32
  let main_v5 : FVec F S4x64x14 .f32 := broadcastInDim S4x64x14 ![] bcast_S_S4x64x14 main_cst_0
  let main_v6 : IVec S4x64x14 1 := cmpf .olt main_v4 main_v5
  let main_c_1 : IVec S_ 1 := constantI S_ 1 1#1
  let main_v7 : IVec S_ 1 := (fun x v => Host.reduce IntOp.andi x v reducesTo_S4x64x14_S_d0_1_2 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  main_v13
-- ==== Kernel.lean ====
abbrev S2097152x14 : Shape := ⟨2, ![2097152, 14]⟩
abbrev S2097152 : Shape := ⟨1, ![2097152]⟩
abbrev S4x64x14 : Shape := ⟨3, ![4, 64, 14]⟩
abbrev S4x64 : Shape := ⟨2, ![4, 64]⟩
abbrev S1048576x28 : Shape := ⟨2, ![1048576, 28]⟩
abbrev S1048576x2 : Shape := ⟨2, ![1048576, 2]⟩
abbrev S4x14x64 : Shape := ⟨3, ![4, 14, 64]⟩
abbrev S_ : Shape := ⟨0, ![]⟩
abbrev S4x14x128 : Shape := ⟨3, ![4, 14, 128]⟩
abbrev S4x28x128 : Shape := ⟨3, ![4, 28, 128]⟩
abbrev S28x4x128 : Shape := ⟨3, ![28, 4, 128]⟩
abbrev S28x512 : Shape := ⟨2, ![28, 512]⟩
abbrev S4x128 : Shape := ⟨2, ![4, 128]⟩
abbrev S1x512 : Shape := ⟨2, ![1, 512]⟩
abbrev S1048576x128 : Shape := ⟨2, ![1048576, 128]⟩
abbrev S4096x28 : Shape := ⟨2, ![4096, 28]⟩
abbrev S4096x2 : Shape := ⟨2, ![4096, 2]⟩
abbrev S4096x128 : Shape := ⟨2, ![4096, 128]⟩
abbrev S4096x512 : Shape := ⟨2, ![4096, 512]⟩
abbrev S4096x1 : Shape := ⟨2, ![4096, 1]⟩
abbrev S2097152x64 : Shape := ⟨2, ![2097152, 64]⟩

abbrev nBuf : Space → Nat
  | .hbm => 18
  | .vmem => 8
  | .smem => 0
  | _ => 0

abbrev bufTy : (tb : Table) → Fin (tcTables nBuf tb) → BufTy
  | .hbm, ⟨0, _⟩ => ⟨S2097152x14, .f32⟩
  | .hbm, ⟨1, _⟩ => ⟨S2097152, .i32⟩
  | .hbm, ⟨2, _⟩ => ⟨S4x64x14, .f32⟩
  | .hbm, ⟨3, _⟩ => ⟨S4x64, .f32⟩
  | .hbm, ⟨4, _⟩ => ⟨S1048576x28, .f32⟩
  | .hbm, ⟨5, _⟩ => ⟨S1048576x2, .i32⟩
  | .hbm, ⟨6, _⟩ => ⟨S4x14x64, .f32⟩
  | .hbm, ⟨7, _⟩ => ⟨S_, .f32⟩
  | .hbm, ⟨8, _⟩ => ⟨S4x14x64, .f32⟩
  | .hbm, ⟨9, _⟩ => ⟨S4x14x128, .f32⟩
  | .hbm, ⟨10, _⟩ => ⟨S4x14x128, .f32⟩
  | .hbm, ⟨11, _⟩ => ⟨S4x28x128, .f32⟩
  | .hbm, ⟨12, _⟩ => ⟨S28x4x128, .f32⟩
  | .hbm, ⟨13, _⟩ => ⟨S28x512, .f32⟩
  | .hbm, ⟨14, _⟩ => ⟨S4x128, .f32⟩
  | .hbm, ⟨15, _⟩ => ⟨S1x512, .f32⟩
  | .hbm, ⟨16, _⟩ => ⟨S1048576x128, .f32⟩
  | .hbm, ⟨17, _⟩ => ⟨S2097152x64, .f32⟩
  | .local _ .vmem, ⟨0, _⟩ => ⟨S4096x28, .f32⟩
  | .local _ .vmem, ⟨1, _⟩ => ⟨S4096x28, .f32⟩
  | .local _ .vmem, ⟨2, _⟩ => ⟨S4096x2, .i32⟩
  | .local _ .vmem, ⟨3, _⟩ => ⟨S4096x2, .i32⟩
  | .local _ .vmem, ⟨4, _⟩ => ⟨S28x512, .f32⟩
  | .local _ .vmem, ⟨5, _⟩ => ⟨S1x512, .f32⟩
  | .local _ .vmem, ⟨6, _⟩ => ⟨S4096x128, .f32⟩
  | .local _ .vmem, ⟨7, _⟩ => ⟨S4096x128, .f32⟩
  | _, _ => ⟨S2097152x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S28x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2097152x14_S1048576x28 : S2097152x14.ShapeCasts S1048576x28
  shapeCasts_S2097152_S1048576x2 : S2097152.ShapeCasts S1048576x2
  transposes_S4x64x14_S4x14x64_0_2_1 : S4x64x14.Transposes [0, 2, 1] S4x14x64
  bcast_S_S4x14x64 : S_.BroadcastsInDim S4x14x64 (![] : Fin 0 → Fin S4x14x64.rank)
  concatenates_S4x14x64_S4x14x64_S4x14x128_d2 : Shape.Concatenates [S4x14x64, S4x14x64] S4x14x128 2
  concatenates_S4x14x128_S4x14x128_S4x28x128_d1 : Shape.Concatenates [S4x14x128, S4x14x128] S4x28x128 1
  transposes_S4x28x128_S28x4x128_1_0_2 : S4x28x128.Transposes [1, 0, 2] S28x4x128
  shapeCasts_S28x4x128_S28x512 : S28x4x128.ShapeCasts S28x512
  concatenates_S4x64_S4x64_S4x128_d1 : Shape.Concatenates [S4x64, S4x64] S4x128 1
  shapeCasts_S4x128_S1x512 : S4x128.ShapeCasts S1x512
  inb_S4096x28_S4096x28_0_0 : ∀ a, (![0, 0] : Fin 2 → Nat) a + S4096x28.size a ≤ S4096x28.size a
  h_S4096x28 : 0 < S4096x28.numel
  shapeCasts_S4096x28_S4096x28 : S4096x28.ShapeCasts S4096x28
  bitsLt_bf16_f32 : FTy.bits .bf16 < FTy.bits .f32
  inb_S28x512_S28x512_0_0 : ∀ a, (![0, 0] : Fin 2 → Nat) a + S28x512.size a ≤ S28x512.size a
  h_S28x512 : 0 < S28x512.numel
  shapeCasts_S28x512_S28x512 : S28x512.ShapeCasts S28x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  iota_S4096x128_d1_w32 : S4096x128.Iotas .tc 32 [1]
  inb_S4096x2_S4096x1_0_0 : ∀ a, (![0, 0] : Fin 2 → Nat) a + S4096x1.size a ≤ S4096x2.size a
  h_S4096x1 : 0 < S4096x1.numel
  shapeCasts_S4096x1_S4096x1 : S4096x1.ShapeCasts S4096x1
  broadcasts_S4096x1_S4096x128 : S4096x1.Broadcasts S4096x128
  inb_S4096x2_S4096x1_0_1 : ∀ a, (![0, 1] : Fin 2 → Nat) a + S4096x1.size a ≤ S4096x2.size a
  slices_S4096x512_o0_0_S4096x128 : S4096x512.Slices ![0, 0] S4096x128
  slices_S4096x512_o0_128_S4096x128 : S4096x512.Slices ![0, 128] S4096x128
  slices_S4096x512_o0_256_S4096x128 : S4096x512.Slices ![0, 256] S4096x128
  slices_S4096x512_o0_384_S4096x128 : S4096x512.Slices ![0, 384] S4096x128
  inb_S4096x128_S4096x128_0_0 : ∀ a, (![0, 0] : Fin 2 → Nat) a + S4096x128.size a ≤ S4096x128.size a
  h_S4096x128 : 0 < S4096x128.numel
  shapeCasts_S1048576x128_S2097152x64 : S1048576x128.ShapeCasts S2097152x64
  dot_S4096x28_S28x512_S4096x512_1_0_0_1_n_n_wf : DotDims.WF S4096x28 S28x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x28.size a ≤ S1048576x28.size a
  hwx0_0 : ∀ i : grid0.Coords, EltTy.bits .f32 = 32 ∨ (Rect.block (s := S1048576x28) S4096x28.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S1048576x2.size a
  hwx0_1 : ∀ i : grid0.Coords, EltTy.bits .i32 = 32 ∨ (Rect.block (s := S1048576x2) S4096x2.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S28x512.size a ≤ S28x512.size a
  hwx0_2 : ∀ i : grid0.Coords, EltTy.bits .f32 = 32 ∨ (Rect.block (s := S28x512) S28x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S1048576x128.size a
  hwx0_4 : ∀ i : grid0.Coords, EltTy.bits .f32 = 32 ∨ (Rect.block (s := S1048576x128) S4096x128.size (cc0_transform_4 i) (hinb0_4 i)).WholeWords (EltTy.packing .f32)

variable [Facts₀]

def dot_S4096x28_S28x512_S4096x512_1_0_0_1_n_n : DotDims S4096x28 S28x512 S4096x512 where
  lhsContracting := [1]
  rhsContracting := [0]
  lhsNonContracting := [0]
  rhsNonContracting := [1]
  lhsBatch := []
  rhsBatch := []
  wf := dot_S4096x28_S28x512_S4096x512_1_0_0_1_n_n_wf

abbrev win0_0 : Pipeline.Window sig grid0 :=
  Pipeline.Window.ofSpec (Memref.whole main_v0) S4096x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S28x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2097152x14 : Shape := ⟨2, ![2097152, 14]⟩
abbrev S2097152 : Shape := ⟨1, ![2097152]⟩
abbrev S4x64x14 : Shape := ⟨3, ![4, 64, 14]⟩
abbrev S4x64 : Shape := ⟨2, ![4, 64]⟩
abbrev S_ : Shape := ⟨0, ![]⟩
abbrev S2097152x64 : Shape := ⟨2, ![2097152, 64]⟩
abbrev S1x64x14 : Shape := ⟨3, ![1, 64, 14]⟩
abbrev S64x14 : Shape := ⟨2, ![64, 14]⟩
abbrev S14x64 : Shape := ⟨2, ![14, 64]⟩
abbrev S1x64 : Shape := ⟨2, ![1, 64]⟩
abbrev S64 : Shape := ⟨1, ![64]⟩
abbrev S2097152x1 : Shape := ⟨2, ![2097152, 1]⟩

abbrev nBuf : Space → Nat
  | .hbm => 66
  | .vmem => 0
  | .smem => 0
  | _ => 0

abbrev bufTy : (tb : Table) → Fin (tcTables nBuf tb) → BufTy
  | .hbm, ⟨0, _⟩ => ⟨S2097152x14, .f32⟩
  | .hbm, ⟨1, _⟩ => ⟨S2097152, .i32⟩
  | .hbm, ⟨2, _⟩ => ⟨S4x64x14, .f32⟩
  | .hbm, ⟨3, _⟩ => ⟨S4x64, .f32⟩
  | .hbm, ⟨4, _⟩ => ⟨S_, .f32⟩
  | .hbm, ⟨5, _⟩ => ⟨S2097152x64, .f32⟩
  | .hbm, ⟨6, _⟩ => ⟨S1x64x14, .f32⟩
  | .hbm, ⟨7, _⟩ => ⟨S64x14, .f32⟩
  | .hbm, ⟨8, _⟩ => ⟨S14x64, .f32⟩
  | .hbm, ⟨9, _⟩ => ⟨S2097152x64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S2097152x64, .f32⟩
  | .hbm, ⟨14, _⟩ => ⟨S2097152x64, .f32⟩
  | .hbm, ⟨15, _⟩ => ⟨S_, .i32⟩
  | .hbm, ⟨16, _⟩ => ⟨S2097152, .i32⟩
  | .hbm, ⟨17, _⟩ => ⟨S2097152, .i1⟩
  | .hbm, ⟨18, _⟩ => ⟨S2097152x1, .i1⟩
  | .hbm, ⟨19, _⟩ => ⟨S2097152x64, .i1⟩
  | .hbm, ⟨20, _⟩ => ⟨S2097152x64, .f32⟩
  | .hbm, ⟨21, _⟩ => ⟨S1x64x14, .f32⟩
  | .hbm, ⟨22, _⟩ => ⟨S64x14, .f32⟩
  | .hbm, ⟨23, _⟩ => ⟨S14x64, .f32⟩
  | .hbm, ⟨24, _⟩ => ⟨S2097152x64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S2097152x64, .f32⟩
  | .hbm, ⟨29, _⟩ => ⟨S2097152x64, .f32⟩
  | .hbm, ⟨30, _⟩ => ⟨S_, .i32⟩
  | .hbm, ⟨31, _⟩ => ⟨S2097152, .i32⟩
  | .hbm, ⟨32, _⟩ => ⟨S2097152, .i1⟩
  | .hbm, ⟨33, _⟩ => ⟨S2097152x1, .i1⟩
  | .hbm, ⟨34, _⟩ => ⟨S2097152x64, .i1⟩
  | .hbm, ⟨35, _⟩ => ⟨S2097152x64, .f32⟩
  | .hbm, ⟨36, _⟩ => ⟨S1x64x14, .f32⟩
  | .hbm, ⟨37, _⟩ => ⟨S64x14, .f32⟩
  | .hbm, ⟨38, _⟩ => ⟨S14x64, .f32⟩
  | .hbm, ⟨39, _⟩ => ⟨S2097152x64, .f32⟩
  | .hbm, ⟨40, _⟩ => ⟨S1x64, .f32⟩
  | .hbm, ⟨41, _⟩ => ⟨S64, .f32⟩
  | .hbm, ⟨42, _⟩ => ⟨S1x64, .f32⟩
  | .hbm, ⟨43, _⟩ => ⟨S2097152x64, .f32⟩
  | .hbm, ⟨44, _⟩ => ⟨S2097152x64, .f32⟩
  | .hbm, ⟨45, _⟩ => ⟨S_, .i32⟩
  | .hbm, ⟨46, _⟩ => ⟨S2097152, .i32⟩
  | .hbm, ⟨47, _⟩ => ⟨S2097152, .i1⟩
  | .hbm, ⟨48, _⟩ => ⟨S2097152x1, .i1⟩
  | .hbm, ⟨49, _⟩ => ⟨S2097152x64, .i1⟩
  | .hbm, ⟨50, _⟩ => ⟨S2097152x64, .f32⟩
  | .hbm, ⟨51, _⟩ => ⟨S1x64x14, .f32⟩
  | .hbm, ⟨52, _⟩ => ⟨S64x14, .f32⟩
  | .hbm, ⟨53, _⟩ => ⟨S14x64, .f32⟩
  | .hbm, ⟨54, _⟩ => ⟨S2097152x64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S2097152x64, .f32⟩
  | .hbm, ⟨59, _⟩ => ⟨S2097152x64, .f32⟩
  | .hbm, ⟨60, _⟩ => ⟨S_, .i32⟩
  | .hbm, ⟨61, _⟩ => ⟨S2097152, .i32⟩
  | .hbm, ⟨62, _⟩ => ⟨S2097152, .i1⟩
  | .hbm, ⟨63, _⟩ => ⟨S2097152x1, .i1⟩
  | .hbm, ⟨64, _⟩ => ⟨S2097152x64, .i1⟩
  | .hbm, ⟨65, _⟩ => ⟨S2097152x64, .f32⟩
  | _, _ => ⟨S2097152x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call1_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call2_v0 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_2 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_call3_v0 : Ref sig .tc := ⟨.hbm, 64, rfl⟩
abbrev main_v52 : Ref sig .tc := ⟨.hbm, 65, rfl⟩

abbrev nD : Nat := 1
abbrev τ : Topo := Topo.v7x

variable {F : FTy → Type} [FloatOps F]

class Facts₀ : Prop where
  bcast_S_S2097152x64 : S_.BroadcastsInDim S2097152x64 (![] : Fin 0 → Fin S2097152x64.rank)
  slices_S4x64x14_S1x64x14_0_0_0 : S4x64x14.Slices ![0, 0, 0] S1x64x14
  shapeCasts_S1x64x14_S64x14 : S1x64x14.ShapeCasts S64x14
  transposes_S64x14_S14x64_1_0 : S64x14.Transposes [1, 0] S14x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x64_0_1 : S2097152x1.BroadcastsInDim S2097152x64 (![0, 1] : Fin 2 → Fin S2097152x64.rank)
  slices_S4x64x14_S1x64x14_1_0_0 : S4x64x14.Slices ![1, 0, 0] S1x64x14
  slices_S4x64_S1x64_1_0 : S4x64.Slices ![1, 0] S1x64
  slices_S4x64x14_S1x64x14_2_0_0 : S4x64x14.Slices ![2, 0, 0] S1x64x14
  slices_S4x64_S1x64_2_0 : S4x64.Slices ![2, 0] S1x64
  slices_S4x64x14_S1x64x14_3_0_0 : S4x64x14.Slices ![3, 0, 0] S1x64x14
  slices_S4x64_S1x64_3_0 : S4x64.Slices ![3, 0] S1x64
  dot_S2097152x14_S14x64_S2097152x64_1_0_0_1_n_n_wf : DotDims.WF S2097152x14 S14x64 S2097152x64 [1] [0] [0] [1] [] []

variable [Facts₀]

def dot_S2097152x14_S14x64_S2097152x64_1_0_0_1_n_n : DotDims S2097152x14 S14x64 S2097152x64 where
  lhsContracting := [1]
  rhsContracting := [0]
  lhsNonContracting := [0]
  rhsNonContracting := [1]
  lhsBatch := []
  rhsBatch := []
  wf := dot_S2097152x14_S14x64_S2097152x64_1_0_0_1_n_n_wf

class Facts : Prop extends Facts₀ where

variable [Facts]
-- ==== Proof.Spec.lean ====
/-
  The mathematics of per-row routing among four small linear maps, with no program in sight.

  route is the plain form: row i of the result is x[i] · W[k]ᵀ + b[k] for the last k in 0..3 with
  ids[i] = k, and 0 when no k matches (a chain of four selects, the later ones winning).

  packed is the pair-packed form: two consecutive rows 2p, 2p+1 share one 28-wide input row and one
  128-lane output row; the four maps are fused into one 28 × 512 matrix whose column 128k + l holds, for
  lane half h' = l / 64, the column l % 64 of W[k]ᵀ in the 14 input rows of half h' and ZERO in the
  14 rows of the other half. The law packed_eq_route: at output row 2p + h, column j, the packed form
  read at (p, 64h + j) is the plain form at (2p + h, j). The 28-term sum splits into the two halves; the
  half that belongs to the other row is a sum of products with 0, which vanish on the extended reals for
  EVERY factor (x · 0 = 0 also at ±∞), so no finiteness of the inputs is used.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Route

/-! ## Indices of the pair packing -/

/-- Row 2p + h of the unpacked arrays: half h of pair p. -/
abbrev pairRow (p : Fin 1048576) (h : Fin 2) : Fin 2097152 :=
  ⟨2 * p.val + h.val, by have := p.isLt; have := h.isLt; omega⟩
/-- Input column 14h + d of a packed row: feature d of half h. -/
abbrev pairIn (h : Fin 2) (d : Fin 14) : Fin 28 :=
  ⟨14 * h.val + d.val, by have := h.isLt; have := d.isLt; omega⟩
/-- Output lane 64h + j of a packed row: column j of half h. -/
abbrev pairLane (h : Fin 2) (j : Fin 64) : Fin 128 :=
  ⟨64 * h.val + j.val, by have := h.isLt; have := j.isLt; omega⟩
/-- Column 128k + l of the fused matrix: lane l of map k. -/
abbrev fusedCol (k : Fin 4) (l : Fin 128) : Fin 512 :=
  ⟨128 * k.val + l.val, by have := k.isLt; have := l.isLt; omega⟩

/-! ## The two forms -/

/-- The select chain: the value of the LAST k in 0..3 equal to the word w, else 0. -/
def pick (w : BitVec 32) (y : Fin 4 → EReal) : EReal :=
  Scalar.select (IntOp.cmpi .eq w 3#32) (y 3)
    (Scalar.select (IntOp.cmpi .eq w 2#32) (y 2)
      (Scalar.select (IntOp.cmpi .eq w 1#32) (y 1)
        (Scalar.select (IntOp.cmpi .eq w 0#32) (y 0) 0)))

/-- Map k applied to row r, at column j: Σ_d x[r,d] · W[k,j,d] + b[k,j]. -/
def expert (x : (⟨2, ![2097152, 14]⟩ : Shape).Idx → EReal) (W : (⟨3, ![4, 64, 14]⟩ : Shape).Idx → EReal)
    (b : (⟨2, ![4, 64]⟩ : Shape).Idx → EReal) (r : Fin 2097152) (j : Fin 64) (k : Fin 4) : EReal :=
  (∑ d : Fin 14, x (ix2 r d) * W (ix3 k j d)) + b (ix2 k j)

/-- The plain form of the routing. -/
def route (x : (⟨2, ![2097152, 14]⟩ : Shape).Idx → EReal) (ids : (⟨1, ![2097152]⟩ : Shape).Idx → BitVec 32)
    (W : (⟨3, ![4, 64, 14]⟩ : Shape).Idx → EReal) (b : (⟨2, ![4, 64]⟩ : Shape).Idx → EReal) :
    (⟨2, ![2097152, 64]⟩ : Shape).Idx → EReal :=
  fun i => pick (ids (ix1 (i 0))) (expert x W b (i 0) (i 1))

/-- The fused product at packed row p, lane l, map k: Σ_r X2[p,r] · WC[r,128k+l] + BC[0,128k+l]. -/
def fused (X2 : (⟨2, ![1048576, 28]⟩ : Shape).Idx → EReal) (WC : (⟨2, ![28, 512]⟩ : Shape).Idx → EReal)
    (BC : (⟨2, ![1, 512]⟩ : Shape).Idx → EReal) (p : Fin 1048576) (l : Fin 128) (k : Fin 4) : EReal :=
  (∑ r : Fin 28, X2 (ix2 p r) * WC (ix2 r (fusedCol k l))) + BC (ix2 0 (fusedCol k l))

/-- Which of the pair's two id words lane l follows: the first below lane 64, the second from there. -/
def laneId (I2 : (⟨2, ![1048576, 2]⟩ : Shape).Idx → BitVec 32) (p : Fin 1048576) (l : Fin 128) : BitVec 32 :=
  Scalar.select (IntOp.cmpi .slt (BitVec.ofNat 32 l.val) 64#32) (I2 (ix2 p 0)) (I2 (ix2 p 1))

/-- The pair-packed form of the routing. -/
def packed (X2 : (⟨2, ![1048576, 28]⟩ : Shape).Idx → EReal) (I2 : (⟨2, ![1048576, 2]⟩ : Shape).Idx → BitVec 32)
    (WC : (⟨2, ![28, 512]⟩ : Shape).Idx → EReal) (BC : (⟨2, ![1, 512]⟩ : Shape).Idx → EReal) :
    (⟨2, ![1048576, 128]⟩ : Shape).Idx → EReal :=
  fun q => pick (laneId I2 (q 0) (q 1)) (fused X2 WC BC (q 0) (q 1))

/-! ## The law -/

/-- A lane is below 64 exactly in the first half (the signed comparison of the lane's word with 64, decided
    over the 128 lanes). -/
theorem lane_lt : ∀ l : Fin 128, IntOp.cmpi .slt (BitVec.ofNat 32 l.val) 64#32 = if l.val < 64 then 1#1 else 0#1 := by
  decide +kernel

/-- A sum over the 28 packed input columns is the sum over the first half plus the sum over the second. -/
theorem sum_halves (f : Fin 28 → EReal) :
    ∑ r : Fin 28, f r = (∑ d : Fin 14, f (pairIn 0 d)) + ∑ d : Fin 14, f (pairIn 1 d) := by
  refine (Fin.sum_univ_add (a := 14) (b := 14) (fun i : Fin (14 + 14) => f i)).trans ?_
  congr 1 <;> refine Finset.sum_congr rfl fun d _ => congrArg f (Fin.ext ?_)

/-- THE LAW. Let the packed arrays be the re-laid arguments: X2 the rows paired, I2 the ids paired, WC
    block-diagonal (the map's column on the lane's own half, hWd; zero on the other half, hW0), BC the bias
    repeated on both halves. Then the packed form at (p, 64h + j) is the plain form at (2p + h, j). -/
theorem packed_eq_route
    (x : (⟨2, ![2097152, 14]⟩ : Shape).Idx → EReal) (ids : (⟨1, ![2097152]⟩ : Shape).Idx → BitVec 32)
    (W : (⟨3, ![4, 64, 14]⟩ : Shape).Idx → EReal) (b : (⟨2, ![4, 64]⟩ : Shape).Idx → EReal)
    (X2 : (⟨2, ![1048576, 28]⟩ : Shape).Idx → EReal) (I2 : (⟨2, ![1048576, 2]⟩ : Shape).Idx → BitVec 32)
    (WC : (⟨2, ![28, 512]⟩ : Shape).Idx → EReal) (BC : (⟨2, ![1, 512]⟩ : Shape).Idx → EReal)
    (hX : ∀ (p : Fin 1048576) (h : Fin 2) (d : Fin 14), X2 (ix2 p (pairIn h d)) = x (ix2 (pairRow p h) d))
    (hI : ∀ (p : Fin 1048576) (h : Fin 2), I2 (ix2 p h) = ids (ix1 (pairRow p h)))
    (hWd : ∀ (k : Fin 4) (h : Fin 2) (d : Fin 14) (j : Fin 64),
      WC (ix2 (pairIn h d) (fusedCol k (pairLane h j))) = W (ix3 k j d))
    (hW0 : ∀ (k : Fin 4) (h h' : Fin 2) (d : Fin 14) (j : Fin 64), h ≠ h' →
      WC (ix2 (pairIn h d) (fusedCol k (pairLane h' j))) = 0)
    (hB : ∀ (k : Fin 4) (h : Fin 2) (j : Fin 64), BC (ix2 0 (fusedCol k (pairLane h j))) = b (ix2 k j))
    (p : Fin 1048576) (h : Fin 2) (j : Fin 64) :
    packed X2 I2 WC BC (ix2 p (pairLane h j)) = route x ids W b (ix2 (pairRow p h) j) := by
  have h01 : h = 0 ∨ h = 1 := by
    match h with
    | ⟨0, _⟩ => exact Or.inl rfl
    | ⟨1, _⟩ => exact Or.inr rfl
  -- the lane's id word is the row's
  have hid : laneId I2 p (pairLane h j) = ids (ix1 (pairRow p h)) := by
    unfold laneId
    rw [lane_lt]
    rcases h01 with rfl | rfl
    · rw [if_pos (show (pairLane 0 j).val < 64 by show 64 * 0 + j.val < 64; have := j.isLt; omega)]
      exact hI p 0
    · rw [if_neg (show ¬ (pairLane 1 j).val < 64 by show ¬ 64 * 1 + j.val < 64; omega)]
      exact hI p 1
  -- the fused product is the row's own map: the other half's 14 terms are products with zero
  have hfu : fused X2 WC BC p (pairLane h j) = expert x W b (pairRow p h) j := by
    funext k
    unfold fused expert
    rw [hB k h j, sum_halves]
    congr 1
    rcases h01 with rfl | rfl
    · have e1 : ∀ d : Fin 14, X2 (ix2 p (pairIn 1 d)) * WC (ix2 (pairIn 1 d) (fusedCol k (pairLane 0 j))) = 0 :=
        fun d => by rw [hW0 k 1 0 d j (by decide), mul_zero]
      have e0 : ∀ d : Fin 14, X2 (ix2 p (pairIn 0 d)) * WC (ix2 (pairIn 0 d) (fusedCol k (pairLane 0 j)))
          = x (ix2 (pairRow p 0) d) * W (ix3 k j d) := fun d => by rw [hX p 0 d, hWd k 0 d j]
      rw [Finset.sum_congr rfl fun d _ => e1 d, Finset.sum_congr rfl fun d _ => e0 d, Finset.sum_const_zero, add_zero]
    · have e0 : ∀ d : Fin 14, X2 (ix2 p (pairIn 0 d)) * WC (ix2 (pairIn 0 d) (fusedCol k (pairLane 1 j))) = 0 :=
        fun d => by rw [hW0 k 0 1 d j (by decide), mul_zero]
      have e1 : ∀ d : Fin 14, X2 (ix2 p (pairIn 1 d)) * WC (ix2 (pairIn 1 d) (fusedCol k (pairLane 1 j)))
          = x (ix2 (pairRow p 1) d) * W (ix3 k j d) := fun d => by rw [hX p 1 d, hWd k 1 d j]
      rw [Finset.sum_congr rfl fun d _ => e0 d, Finset.sum_congr rfl fun d _ => e1 d, Finset.sum_const_zero, zero_add]
  show pick (laneId I2 p (pairLane h j)) (fused X2 WC BC p (pairLane h j))
    = pick (ids (ix1 (pairRow p h))) (expert x W b (pairRow p h) j)
  rw [hid, hfu]

end Cert.Route

end
-- ==== Proof.Body.lean ====
/-
  The kernel body's one stored value, read at an index.

  At row p and lane l of a block the body stores the select chain (Spec.lean's pick) over the four 128-lane
  slabs of the fused product: slab k at lane l is column 128k + l of (block of X2) · WC + BC, where the
  product is the plain sum over the 28 packed input columns (at the ideal values a matmul into a zero accumulator is
  just that sum, and the narrowing of both operands to bf16 is the identity) and the bias row is broadcast down the
  rows. The word the chain compares is the first id column below lane 64 and the second from lane 64 on (the lane
  number is the iota along axis 1).
-/
import proofs.«105915_j59957743452495_2_alg».proof.Proof.Gen.KernelIdeal.Skeleton
import proofs.«105915_j59957743452495_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.Route.Body

open Cert.KernelIdeal Cert.KernelIdeal.Gen Cert.Route

/-- The fused product plus bias, over a whole block: [4096, 512]. -/
def yAll (v0 : Vec Ideal S4096x28 .f32) (v3 : Vec Ideal S28x512 .f32) (v7 : Vec Ideal S1x512 .f32) : FVec Ideal S4096x512 .f32 :=
  addf (matmul dot_S4096x28_S28x512_S4096x512_1_0_0_1_n_n none
      (truncf .bf16 (shapeCast S4096x28 v0 shapeCasts_S4096x28_S4096x28 : FVec Ideal S4096x28 .f32) bitsLt_bf16_f32)
      (truncf .bf16 (shapeCast S28x512 v3 shapeCasts_S28x512_S28x512 : FVec Ideal S28x512 .f32) bitsLt_bf16_f32)
      (constant S4096x512 .f32 0x00000000#32))
    (broadcastTo S4096x512 (shapeCast S1x512 v7 shapeCasts_S1x512_S1x512 : FVec Ideal S1x512 .f32) broadcasts_S1x512_S4096x512)

/-- The id word each lane follows: the first id column below lane 64, the second from there. -/
def laneWord (v12 v16 : Vec Ideal S4096x1 .i32) : IVec S4096x128 32 :=
  select (cmpi .slt (iota .tc S4096x128 32 [1] iota_S4096x128_d1_w32) (broadcast S4096x128 64#32))
    (broadcastTo S4096x128 (shapeCast S4096x1 (shapeCast S4096x1 v12 shapeCasts_S4096x1_S4096x1 : IVec S4096x1 32) shapeCasts_S4096x1_S4096x1 : IVec S4096x1 32) broadcasts_S4096x1_S4096x128)
    (broadcastTo S4096x128 (shapeCast S4096x1 (shapeCast S4096x1 v16 shapeCasts_S4096x1_S4096x1 : IVec S4096x1 32) shapeCasts_S4096x1_S4096x1 : IVec S4096x1 32) broadcasts_S4096x1_S4096x128)

/-- The four selects over the four slabs, the later maps winning, zero where no map matches. -/
def chain (y : FVec Ideal S4096x512 .f32) (w : IVec S4096x128 32) : FVec Ideal S4096x128 .f32 :=
  select (cmpi .eq w (broadcast S4096x128 3#32)) (extractStridedSlice S4096x128 ![0, 384] y slices_S4096x512_o0_384_S4096x128)
    (select (cmpi .eq w (broadcast S4096x128 2#32)) (extractStridedSlice S4096x128 ![0, 256] y slices_S4096x512_o0_256_S4096x128)
      (select (cmpi .eq w (broadcast S4096x128 1#32)) (extractStridedSlice S4096x128 ![0, 128] y slices_S4096x512_o0_128_S4096x128)
        (select (cmpi .eq w (broadcast S4096x128 0#32)) (extractStridedSlice S4096x128 ![0, 0] y slices_S4096x512_o0_0_S4096x128)
          (broadcast S4096x128 (Scalar.ofBits (F := Ideal) .f32 0x00000000#32)))))

/-- The body's stored value is the chain over the fused product and the lane words. -/
theorem pay_eq (v0 : Vec Ideal S4096x28 .f32) (v3 : Vec Ideal S28x512 .f32) (v7 : Vec Ideal S1x512 .f32) (v12 v16 : Vec Ideal S4096x1 .i32) :
    k0_pay1 (F := Ideal) v0 v3 v7 v12 v16 = chain (yAll v0 v3 v7) (laneWord v12 v16) := rfl

/-- The matmul's operand indices, coordinate by coordinate: output (row, col) and contraction index q read the left
    operand at (row, q) and the right at (q, col). -/
theorem lhs_row (i : S4096x512.Idx) (q : dot_S4096x28_S28x512_S4096x512_1_0_0_1_n_n.contr.Idx) : (dot_S4096x28_S28x512_S4096x512_1_0_0_1_n_n.lhsIdx i q 0).val = (i 0).val := by
  unfold DotDims.lhsIdx
  rw [dif_neg (show ¬(0 : Fin S4096x28.rank) ∈ dot_S4096x28_S28x512_S4096x512_1_0_0_1_n_n.lhsBatch by decide), dif_pos (show (0 : Fin S4096x28.rank) ∈ dot_S4096x28_S28x512_S4096x512_1_0_0_1_n_n.lhsNonContracting by decide)]
  rfl
theorem lhs_contr (i : S4096x512.Idx) (q : dot_S4096x28_S28x512_S4096x512_1_0_0_1_n_n.contr.Idx) : (dot_S4096x28_S28x512_S4096x512_1_0_0_1_n_n.lhsIdx i q 1).val = (q ⟨0, by decide⟩).val :=
  dot_S4096x28_S28x512_S4096x512_1_0_0_1_n_n.lhsIdx_val_of_single rfl i q
theorem rhs_contr (i : S4096x512.Idx) (q : dot_S4096x28_S28x512_S4096x512_1_0_0_1_n_n.contr.Idx) : (dot_S4096x28_S28x512_S4096x512_1_0_0_1_n_n.rhsIdx i q 0).val = (q ⟨0, by decide⟩).val :=
  dot_S4096x28_S28x512_S4096x512_1_0_0_1_n_n.rhsIdx_val_of_single rfl i q
theorem rhs_col (i : S4096x512.Idx) (q : dot_S4096x28_S28x512_S4096x512_1_0_0_1_n_n.contr.Idx) : (dot_S4096x28_S28x512_S4096x512_1_0_0_1_n_n.rhsIdx i q 1).val = (i 1).val := by
  unfold DotDims.rhsIdx
  rw [dif_neg (show ¬(1 : Fin S28x512.rank) ∈ dot_S4096x28_S28x512_S4096x512_1_0_0_1_n_n.rhsBatch by decide), dif_pos (show (1 : Fin S28x512.rank) ∈ dot_S4096x28_S28x512_S4096x512_1_0_0_1_n_n.rhsNonContracting by decide)]
  rfl

/-- The fused product at (p, c): the sum over the 28 packed input columns, plus the bias at column c. -/
theorem yAll_apply (v0 : Vec Ideal S4096x28 .f32) (v3 : Vec Ideal S28x512 .f32) (v7 : Vec Ideal S1x512 .f32) (p : Fin 4096) (c : Fin 512) :
    yAll v0 v3 v7 (ix2 p c) = (∑ r : Fin 28, v0 (ix2 p r) * v3 (ix2 r c)) + v7 (ix2 0 c) := by
  unfold yAll
  rw [shapeCast_self, shapeCast_self, shapeCast_self, addf_apply]
  congr 1
  · simp only [matmul]
    rw [Ideal.matmul_constant_zero_apply, ← Equiv.sum_comp (contrEquiv1 dot_S4096x28_S28x512_S4096x512_1_0_0_1_n_n 28 rfl rfl).symm]
    refine Finset.sum_congr rfl fun k _ => ?_
    have hk := contrEquiv1_symm_val dot_S4096x28_S28x512_S4096x512_1_0_0_1_n_n 28 rfl rfl k
    rw [truncf_apply, truncf_apply]
    congr 1
    · refine congrArg v0 (funext fun a => Fin.ext ?_)
      match a with
      | ⟨0, _⟩ => exact lhs_row _ _
      | ⟨1, _⟩ => exact (lhs_contr _ _).trans hk
    · refine congrArg v3 (funext fun a => Fin.ext ?_)
      match a with
      | ⟨0, _⟩ => exact (rhs_contr _ _).trans hk
      | ⟨1, _⟩ => exact rhs_col _ _
  · exact broadcastTo_apply v7 broadcasts_S1x512_S4096x512 (ix2 p c) (ix2 0 c) (fun a => match a with
      | ⟨0, _⟩ => by show (0 : Nat) = if (1 : Nat) = 1 then 0 else p.val; rw [if_pos rfl]
      | ⟨1, _⟩ => by show c.val = if (512 : Nat) = 1 then 0 else c.val; rw [if_neg (by decide)])

/-- A 128-lane slab of the fused product at (p, l) is the product at column offset + l. -/
theorem slab_apply (y : FVec Ideal S4096x512 .f32) (off : Nat) (h : S4096x512.Slices ![0, off] S4096x128)
    (p : Fin 4096) (l : Fin 128) (c : Fin 512) (hc : c.val = off + l.val) :
    extractStridedSlice S4096x128 ![0, off] y h (ix2 p l) = y (ix2 p c) :=
  extractStridedSlice_apply ![0, off] y h (ix2 p l) (ix2 p c) (fun a => match a with
    | ⟨0, _⟩ => by show p.val = 0 + p.val; omega
    | ⟨1, _⟩ => by show c.val = off + l.val; exact hc)

/-- The lane word at (p, l). -/
theorem laneWord_apply (v12 v16 : Vec Ideal S4096x1 .i32) (p : Fin 4096) (l : Fin 128) :
    laneWord v12 v16 (ix2 p l)
      = Scalar.select (IntOp.cmpi .slt (BitVec.ofNat 32 l.val) 64#32) (v12 (ix2 p 0)) (v16 (ix2 p 0)) := by
  unfold laneWord
  rw [shapeCast_self, shapeCast_self, shapeCast_self, shapeCast_self, select_apply]
  have hi : iota .tc S4096x128 32 [1] iota_S4096x128_d1_w32 (ix2 p l) = BitVec.ofNat 32 l.val :=
    iota_single_apply .tc S4096x128 32 1 _ (ix2 p l)
  have hb : ∀ v : Vec Ideal S4096x1 .i32, broadcastTo S4096x128 v broadcasts_S4096x1_S4096x128 (ix2 p l) = v (ix2 p 0) := fun v =>
    broadcastTo_apply v broadcasts_S4096x1_S4096x128 (ix2 p l) (ix2 p 0) (fun a => match a with
      | ⟨0, _⟩ => by show p.val = if (4096 : Nat) = 1 then 0 else p.val; rw [if_neg (by decide)]
      | ⟨1, _⟩ => by show (0 : Nat) = if (1 : Nat) = 1 then 0 else l.val; rw [if_pos rfl])
  show Scalar.select (IntOp.cmpi .slt (iota .tc S4096x128 32 [1] iota_S4096x128_d1_w32 (ix2 p l)) 64#32) _ _ = _
  rw [hi, hb, hb]

/-- THE STORED VALUE AT AN INDEX: the select chain over the four fused columns 128k + l. -/
theorem pay_apply (v0 : Vec Ideal S4096x28 .f32) (v3 : Vec Ideal S28x512 .f32) (v7 : Vec Ideal S1x512 .f32) (v12 v16 : Vec Ideal S4096x1 .i32)
    (p : Fin 4096) (l : Fin 128) :
    k0_pay1 (F := Ideal) v0 v3 v7 v12 v16 (ix2 p l)
      = pick (Scalar.select (IntOp.cmpi .slt (BitVec.ofNat 32 l.val) 64#32) (v12 (ix2 p 0)) (v16 (ix2 p 0)))
          (fun k => (∑ r : Fin 28, v0 (ix2 p r) * v3 (ix2 r (fusedCol k l))) + v7 (ix2 0 (fusedCol k l))) := by
  rw [pay_eq]
  unfold chain
  rw [select_apply, select_apply, select_apply, select_apply]
  rw [slab_apply (yAll v0 v3 v7) 384 _ p l (fusedCol 3 l) (by show 128 * 3 + l.val = 384 + l.val; omega),
    slab_apply (yAll v0 v3 v7) 256 _ p l (fusedCol 2 l) (by show 128 * 2 + l.val = 256 + l.val; omega),
    slab_apply (yAll v0 v3 v7) 128 _ p l (fusedCol 1 l) (by show 128 * 1 + l.val = 128 + l.val; omega),
    slab_apply (yAll v0 v3 v7) 0 _ p l (fusedCol 0 l) (by show 128 * 0 + l.val = 0 + l.val; omega)]
  simp only [cmpi, broadcast_apply, laneWord_apply, yAll_apply]
  have hz : (Scalar.ofBits (F := Ideal) .f32 0x00000000#32 : EReal) = 0 := Ideal.ofBits_zero_f32
  rw [hz]
  rfl

end Cert.Route.Body

end
-- ==== Proof.Blocks.lean ====
/-
  From the blocks the body writes back to the whole output array of the region.

  Grid point t handles packed rows 4096 t … 4096 t + 4095: it reads that row block of the paired rows and of the
  paired ids, and the whole fused matrix and fused bias (their one block), and writes that row block of the output.
  So what point t writes back is the restriction to its block of the pair-packed form (Spec.lean's packed) of the
  four arrays the region finds; the 256 row blocks tile the [1048576, 128] array, every point writes its block back,
  and the array therefore ends holding the packed form everywhere.
-/
import proofs.«105915_j59957743452495_2_alg».proof.Proof.Gen.KernelIdeal.Frame
import proofs.«105915_j59957743452495_2_alg».proof.Proof.Body
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Route.Blocks

open Cert.KernelIdeal Cert.KernelIdeal.Gen Cert.Route

variable (m : (ℓ : Loc nD τ sig) → Buf (Elt Ideal) ℓ) (ρ : Dev nD → PrngReg)

theorem hz : (![0, 0] : Fin 2 → Nat) = fun _ => 0 := funext fun a => by fin_cases a <;> rfl

/-- The body's two one-column loads of the id block read its columns 0 and 1. -/
theorem ld_col0 (b1 : Vec Ideal S4096x2 .i32) (p : Fin 4096) : View.ld b1 r0_3 (ix2 p (0 : Fin 1)) = b1 (ix2 p 0) := by
  show b1 (r0_3.idx (ix2 p (0 : Fin 1))) = b1 (ix2 p 0)
  refine congrArg b1 (funext fun a => Fin.ext ?_)
  match a with
  | ⟨0, _⟩ => show 0 + 1 * p.val = p.val; omega
  | ⟨1, _⟩ => show 0 + 1 * 0 = 0; rfl
theorem ld_col1 (b1 : Vec Ideal S4096x2 .i32) (p : Fin 4096) : View.ld b1 r0_4 (ix2 p (0 : Fin 1)) = b1 (ix2 p 1) := by
  show b1 (r0_4.idx (ix2 p (0 : Fin 1))) = b1 (ix2 p 1)
  refine congrArg b1 (funext fun a => Fin.ext ?_)
  match a with
  | ⟨0, _⟩ => show 0 + 1 * p.val = p.val; omega
  | ⟨1, _⟩ => show 1 + 1 * 0 = 1; rfl

/-- One stored value, over abstract blocks: if row p of the row block is row q of the paired rows (and of the paired ids),
    and the matrix and bias blocks are the whole arrays, the body's value at (p, l) is the packed form at (q, l). -/
theorem block_value (X2 : S1048576x28.Idx → Elt Ideal .f32) (I2 : S1048576x2.Idx → Elt Ideal .i32)
    (WC : S28x512.Idx → Elt Ideal .f32) (BC : S1x512.Idx → Elt Ideal .f32)
    (b0 : Vec Ideal S4096x28 .f32) (b1 : Vec Ideal S4096x2 .i32) (b2 : Vec Ideal S28x512 .f32) (b3 : Vec Ideal S1x512 .f32)
    (q : Fin 1048576) (p : Fin 4096) (l : Fin 128)
    (h0 : ∀ r : Fin 28, b0 (ix2 p r) = X2 (ix2 q r))
    (h1 : ∀ s : Fin 2, b1 (ix2 p s) = I2 (ix2 q s))
    (h2 : ∀ (r : Fin 28) (cc : Fin 512), b2 (ix2 r cc) = WC (ix2 r cc))
    (h3 : ∀ cc : Fin 512, b3 (ix2 0 cc) = BC (ix2 0 cc)) :
    k0_pay1 (F := Ideal) b0 b2 b3 (View.ld b1 r0_3) (View.ld b1 r0_4) (ix2 p l) = packed X2 I2 WC BC (ix2 q l) := by
  refine (Body.pay_apply b0 b2 b3 (View.ld b1 r0_3) (View.ld b1 r0_4) p l).trans ?_
  rw [ld_col0, ld_col1, h1 0, h1 1]
  show pick _ _ = pick (laneId I2 q l) (fused X2 WC BC q l)
  unfold laneId fused
  congr 1
  funext k
  rw [h3]
  congr 1
  exact Finset.sum_congr rfl fun r _ => by rw [h0 r, h2 r]

/-- The printed index maps, decided once over the 256 grid points: the row-blocked windows are at block t, the two
    resident windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The pair-packed form of the four arrays the region finds: what the output array will hold. -/
abbrev regionResult (c : Dev nD) : S1048576x128.Idx → Elt Ideal .f32 :=
  packed (V m c main_v0 : S1048576x28.Idx → Elt Ideal .f32) (V m c main_v1 : S1048576x2.Idx → Elt Ideal .i32)
    (V m c main_v8 : S28x512.Idx → Elt Ideal .f32) (V m c main_v10 : S1x512.Idx → Elt Ideal .f32)

/-- WHAT POINT t WRITES BACK is block t of the packed form. -/
theorem flushed_eq (c : Dev nD) (t : Fin cfg0.N) :
    (dats m 0 c).flushed 4 t = ((cfg0.win 4).blk t).view.read (Elt Ideal) (regionResult m c) := by
  show (cfg0.win 4).cut (grid0.coords t) ((dats m 0 c).after 4 t) = _
  rw [after0_4]
  unfold out0_4
  rw [View.canon_unit_zero hz]
  simp only [View.ld_unit_zero (S := S4096x28) hz, View.ld_unit_zero (S := S28x512) hz, View.ld_unit_zero (S := S1x512) hz]
  obtain ⟨e00, e01, e10, e11, e20, e21, e30, e31, e40, e41⟩ := idx_facts t
  have ht : t.val < 256 := lt_of_lt_of_eq t.isLt N_0
  funext y
  obtain ⟨p, l, rfl⟩ : ∃ (p : Fin 4096) (l : Fin 128), y = ix2 p l := ⟨y 0, y 1, eq_ix2 y⟩
  have hp : p.val < 4096 := p.isLt
  have hl : l.val < 128 := l.isLt
  let q : Fin 1048576 := ⟨4096 * t.val + p.val, by omega⟩
  rw [View.read_apply]
  show k0_pay1 (F := Ideal) (iblk m c 0 t) (iblk m c 2 t) (iblk m c 3 t) (View.ld (iblk m c 1 t) r0_3) (View.ld (iblk m c 1 t) r0_4) (ix2 p l) = _
  refine (block_value (V m c main_v0 : S1048576x28.Idx → Elt Ideal .f32) (V m c main_v1 : S1048576x2.Idx → Elt Ideal .i32)
    (V m c main_v8 : S28x512.Idx → Elt Ideal .f32) (V m c main_v10 : S1x512.Idx → Elt Ideal .f32)
    (iblk m c 0 t) (iblk m c 1 t) (iblk m c 2 t) (iblk m c 3 t) q p l ?_ ?_ ?_ ?_).trans ?_
  · intro r
    have hr : r.val < 28 := r.isLt
    unfold iblk
    rw [View.read_apply]
    show V m c main_v0 _ = V m c main_v0 _
    refine congrArg (V m c main_v0 : S1048576x28.Idx → Elt Ideal .f32) (funext fun a => Fin.ext ?_)
    match a with
    | ⟨0, _⟩ => show win0_0.index t (0 : Fin 2) * 4096 + 1 * p.val = 4096 * t.val + p.val; omega
    | ⟨1, _⟩ => show win0_0.index t (1 : Fin 2) * 28 + 1 * r.val = r.val; omega
  · intro s
    have hs : s.val < 2 := s.isLt
    unfold iblk
    rw [View.read_apply]
    show V m c main_v1 _ = V m c main_v1 _
    refine congrArg (V m c main_v1 : S1048576x2.Idx → Elt Ideal .i32) (funext fun a => Fin.ext ?_)
    match a with
    | ⟨0, _⟩ => show win0_1.index t (0 : Fin 2) * 4096 + 1 * p.val = 4096 * t.val + p.val; omega
    | ⟨1, _⟩ => show win0_1.index t (1 : Fin 2) * 2 + 1 * s.val = s.val; omega
  · intro r cc
    unfold iblk
    rw [View.read_apply]
    show V m c main_v8 _ = V m c main_v8 _
    refine congrArg (V m c main_v8 : S28x512.Idx → Elt Ideal .f32) (funext fun a => Fin.ext ?_)
    match a with
    | ⟨0, _⟩ => show win0_2.index t (0 : Fin 2) * 28 + 1 * r.val = r.val; omega
    | ⟨1, _⟩ => show win0_2.index t (1 : Fin 2) * 512 + 1 * cc.val = cc.val; omega
  · intro cc
    unfold iblk
    rw [View.read_apply]
    show V m c main_v10 _ = V m c main_v10 _
    refine congrArg (V m c main_v10 : S1x512.Idx → Elt Ideal .f32) (funext fun a => Fin.ext ?_)
    match a with
    | ⟨0, _⟩ => show win0_3.index t (0 : Fin 2) * 1 + 1 * 0 = 0; omega
    | ⟨1, _⟩ => show win0_3.index t (1 : Fin 2) * 512 + 1 * cc.val = cc.val; omega
  · show regionResult m c (ix2 q l) = regionResult m c _
    refine congrArg (regionResult m c) (funext fun a => Fin.ext ?_)
    match a with
    | ⟨0, _⟩ => show 4096 * t.val + p.val = win0_4.index t (0 : Fin 2) * 4096 + 1 * p.val; omega
    | ⟨1, _⟩ => show l.val = win0_4.index t (1 : Fin 2) * 128 + 1 * l.val; omega

/-- An index of the output array is in point t's block iff each coordinate is in the block's range on its axis. -/
theorem mem_blk (t : Fin cfg0.N) (i : S1048576x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v11).slice (win0_4.rect t)).set ↔ _
  rw [View.set_slice_whole, Rect.mem_set_unit]
  exact Iff.rfl

/-- Row r of the output is in the block of point r / 4096, which writes it back. -/
theorem covered (i : S1048576x128.Idx) :
    ∃ t : Fin cfg0.N, (cfg0.win 4).flush t = true ∧ i ∈ ((cfg0.win 4).blk t).view.set := by
  have hi0 : (i 0).val < 1048576 := (i 0).isLt
  have hi1 : (i 1).val < 128 := (i 1).isLt
  have hlt : (i 0).val / 4096 < cfg0.N := by show (i 0).val / 4096 < grid0.N; rw [N_0]; omega
  obtain ⟨-, -, -, -, -, -, -, -, e40, e41⟩ := idx_facts ⟨(i 0).val / 4096, hlt⟩
  refine ⟨⟨(i 0).val / 4096, hlt⟩, flush0_4 _, ?_⟩
  rw [mem_blk]
  intro a
  match a with
  | ⟨0, _⟩ =>
    show win0_4.index ⟨(i 0).val / 4096, hlt⟩ (0 : Fin 2) * 4096 ≤ (i 0).val ∧ (i 0).val < win0_4.index ⟨(i 0).val / 4096, hlt⟩ (0 : Fin 2) * 4096 + 4096
    rw [e40]
    show (i 0).val / 4096 * 4096 ≤ (i 0).val ∧ (i 0).val < (i 0).val / 4096 * 4096 + 4096
    omega
  | ⟨1, _⟩ =>
    show win0_4.index ⟨(i 0).val / 4096, hlt⟩ (1 : Fin 2) * 128 ≤ (i 1).val ∧ (i 1).val < win0_4.index ⟨(i 0).val / 4096, hlt⟩ (1 : Fin 2) * 128 + 128
    rw [e41]
    omega

/-- THE OUTPUT ARRAY OF THE REGION ends holding the packed form. -/
theorem region_final (c : Dev nD) : (dats m 0 c).arrAt 4 cfg0.N = regionResult m c :=
  (dats m 0 c).arrAt_eq_of_cover 4 (regionResult m c) (fun t _ => flushed_eq m c t) covered

end Cert.Route.Blocks

end
-- ==== Proof.Prefix.lean ====
/-
  The arrays the kernel's region finds, as functions of the four arguments, read at the indices of the pair packing.

  Before the region the program re-lays its arguments: the rows of x and the ids are paired by a reshape; the four
  maps are transposed to [4, 14, 64], padded with a zero block on the right (for the first row of a pair) or on the
  left (for the second), the two stacked along the 14-axis into [4, 28, 128], and the map axis moved inside and merged
  with the lanes into [28, 512]; the bias is repeated twice along the lanes and flattened to [1, 512].
  Read at input column 14h + d and fused column 128k + 64h' + j this gives W[k, j, d] when h = h' and the zero
  constant when not; the bias at 128k + 64h + j gives b[k, j]; the paired rows at (p, 14h + d) give x[2p + h, d]
  and the paired ids at (p, h) give ids[2p + h].
-/
import proofs.«105915_j59957743452495_2_alg».proof.Proof.Gen.KernelIdeal.Frame
import proofs.«105915_j59957743452495_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem Idealize.ShloMosaic.StableHlo Idealize.ShloMosaic.ValueIdx

namespace Cert.Route.Prefix

open Cert.KernelIdeal Cert.KernelIdeal.Gen Cert.Route

/-! ## The pairing reshapes -/

/-- The paired rows: [2097152, 14] viewed [1048576, 28] reads row 2p + h, feature d at (p, 14h + d). -/
theorem pairedRows_apply (x : S2097152x14.Idx → Elt Ideal .f32) (p : Fin 1048576) (h : Fin 2) (d : Fin 14) :
    shapeCast S1048576x28 x shapeCasts_S2097152x14_S1048576x28 (ix2 p (pairIn h d)) = x (ix2 (pairRow p h) d) :=
  shapeCast_apply x shapeCasts_S2097152x14_S1048576x28 (ix2 p (pairIn h d)) (ix2 (pairRow p h) d) (by
    rewrite [Shape.rowMajor_val_two, Shape.rowMajor_val_two]
    have := p.isLt; have := h.isLt; have := d.isLt
    show (2 * p.val + h.val) * 14 + d.val = p.val * 28 + (14 * h.val + d.val); omega)

/-- The paired ids: [2097152] viewed [1048576, 2] reads id 2p + h at (p, h). -/
theorem pairedIds_apply (ids : S2097152.Idx → Elt Ideal .i32) (p : Fin 1048576) (h : Fin 2) :
    shapeCast S1048576x2 ids shapeCasts_S2097152_S1048576x2 (ix2 p h) = ids (ix1 (pairRow p h)) :=
  shapeCast_apply ids shapeCasts_S2097152_S1048576x2 (ix2 p h) (ix1 (pairRow p h)) (by
    rewrite [Shape.rowMajor_val_one, Shape.rowMajor_val_two]
    have := p.isLt; have := h.isLt
    show 2 * p.val + h.val = p.val * 2 + h.val; omega)

/-! ## The two-piece concatenations, piece by piece -/

/-- Stacking two [4, 14, 128] blocks along the 14-axis: row 14·0 + d is the first block's row d. -/
theorem rows_fst (T B : S4x14x128.Idx → Elt Ideal .f32) (k : Fin 4) (d : Fin 14) (l : Fin 128) :
    concatenate S4x28x128 1 [⟨S4x14x128, T⟩, ⟨S4x14x128, B⟩] concatenates_S4x14x128_S4x14x128_S4x28x128_d1 (ix3 k (pairIn 0 d) l)
      = T (ix3 k d l) :=
  concatenate_pair_apply_left 1 T B concatenates_S4x14x128_S4x14x128_S4x28x128_d1 (ix3 k (pairIn 0 d) l) rfl (ix3 k d l)
    (fun b => match b with
      | ⟨0, _⟩ => rfl
      | ⟨1, _⟩ => by show d.val = 14 * 0 + d.val; omega
      | ⟨2, _⟩ => rfl)

/-- Row 14·1 + d is the second block's row d. -/
theorem rows_snd (T B : S4x14x128.Idx → Elt Ideal .f32) (k : Fin 4) (d : Fin 14) (l : Fin 128) :
    concatenate S4x28x128 1 [⟨S4x14x128, T⟩, ⟨S4x14x128, B⟩] concatenates_S4x14x128_S4x14x128_S4x28x128_d1 (ix3 k (pairIn 1 d) l)
      = B (ix3 k d l) :=
  concatenate_pair_apply_right 1 T B concatenates_S4x14x128_S4x14x128_S4x28x128_d1 (ix3 k (pairIn 1 d) l) rfl rfl (ix3 k d l)
    (fun b hb => match b, hb with
      | ⟨0, _⟩, _ => rfl
      | ⟨1, _⟩, hb => absurd rfl hb
      | ⟨2, _⟩, _ => rfl)
    (by show d.val + 14 = 14 * 1 + d.val; omega)

/-- Joining two [4, 14, 64] blocks along the lanes: lane 64·0 + j is the first block's lane j. -/
theorem lanes_fst (A B : S4x14x64.Idx → Elt Ideal .f32) (k : Fin 4) (d : Fin 14) (j : Fin 64) :
    concatenate S4x14x128 2 [⟨S4x14x64, A⟩, ⟨S4x14x64, B⟩] concatenates_S4x14x64_S4x14x64_S4x14x128_d2 (ix3 k d (pairLane 0 j))
      = A (ix3 k d j) :=
  concatenate_pair_apply_left 2 A B concatenates_S4x14x64_S4x14x64_S4x14x128_d2 (ix3 k d (pairLane 0 j)) rfl (ix3 k d j)
    (fun b => match b with
      | ⟨0, _⟩ => rfl
      | ⟨1, _⟩ => rfl
      | ⟨2, _⟩ => by show j.val = 64 * 0 + j.val; omega)

/-- Lane 64·1 + j is the second block's lane j. -/
theorem lanes_snd (A B : S4x14x64.Idx → Elt Ideal .f32) (k : Fin 4) (d : Fin 14) (j : Fin 64) :
    concatenate S4x14x128 2 [⟨S4x14x64, A⟩, ⟨S4x14x64, B⟩] concatenates_S4x14x64_S4x14x64_S4x14x128_d2 (ix3 k d (pairLane 1 j))
      = B (ix3 k d j) :=
  concatenate_pair_apply_right 2 A B concatenates_S4x14x64_S4x14x64_S4x14x128_d2 (ix3 k d (pairLane 1 j)) rfl rfl (ix3 k d j)
    (fun b hb => match b, hb with
      | ⟨0, _⟩, _ => rfl
      | ⟨1, _⟩, _ => rfl
      | ⟨2, _⟩, hb => absurd rfl hb)
    (by show j.val + 64 = 64 * 1 + j.val; omega)

/-- The bias repeated along the lanes: both lane 64·0 + j and lane 64·1 + j read lane j. -/
theorem bias_fst (A B : S4x64.Idx → Elt Ideal .f32) (k : Fin 4) (j : Fin 64) :
    concatenate S4x128 1 [⟨S4x64, A⟩, ⟨S4x64, B⟩] concatenates_S4x64_S4x64_S4x128_d1 (ix2 k (pairLane 0 j)) = A (ix2 k j) :=
  concatenate_pair_apply_left 1 A B concatenates_S4x64_S4x64_S4x128_d1 (ix2 k (pairLane 0 j)) rfl (ix2 k j)
    (fun b => match b with
      | ⟨0, _⟩ => rfl
      | ⟨1, _⟩ => by show j.val = 64 * 0 + j.val; omega)
theorem bias_snd (A B : S4x64.Idx → Elt Ideal .f32) (k : Fin 4) (j : Fin 64) :
    concatenate S4x128 1 [⟨S4x64, A⟩, ⟨S4x64, B⟩] concatenates_S4x64_S4x64_S4x128_d1 (ix2 k (pairLane 1 j)) = B (ix2 k j) :=
  concatenate_pair_apply_right 1 A B concatenates_S4x64_S4x64_S4x128_d1 (ix2 k (pairLane 1 j)) rfl rfl (ix2 k j)
    (fun b hb => match b, hb with
      | ⟨0, _⟩, _ => rfl
      | ⟨1, _⟩, hb => absurd rfl hb)
    (by show j.val + 64 = 64 * 1 + j.val; omega)

/-! ## The fused matrix and the fused bias -/

/-- The map axis moved inside and merged with the lanes: [4, 28, 128] → [28, 4, 128] → [28, 512] reads (k, r, l) at
    (r, 128k + l). -/
theorem merged_apply (Y : S4x28x128.Idx → Elt Ideal .f32) (r : Fin 28) (k : Fin 4) (l : Fin 128) :
    shapeCast S28x512 (transpose S28x4x128 [1, 0, 2] Y transposes_S4x28x128_S28x4x128_1_0_2) shapeCasts_S28x4x128_S28x512 (ix2 r (fusedCol k l))
      = Y (ix3 k r l) := by
  refine (shapeCast_apply _ shapeCasts_S28x4x128_S28x512 (ix2 r (fusedCol k l)) (ix3 r k l) (by
    rewrite [Shape.rowMajor_val_three, Shape.rowMajor_val_two]
    have := r.isLt; have := k.isLt; have := l.isLt
    show (r.val * 4 + k.val) * 128 + l.val = r.val * 512 + (128 * k.val + l.val); omega)).trans ?_
  exact transpose_apply [1, 0, 2] Y transposes_S4x28x128_S28x4x128_1_0_2 (ix3 r k l) (ix3 k r l) (fun b => match b with
    | ⟨0, _⟩ => rfl
    | ⟨1, _⟩ => rfl
    | ⟨2, _⟩ => rfl)

/-- A map transposed to [4, 14, 64] reads W[k, j, d] at (k, d, j). -/
theorem mapT_apply (W : S4x64x14.Idx → Elt Ideal .f32) (k : Fin 4) (d : Fin 14) (j : Fin 64) :
    transpose S4x14x64 [0, 2, 1] W transposes_S4x64x14_S4x14x64_0_2_1 (ix3 k d j) = W (ix3 k j d) :=
  transpose_apply [0, 2, 1] W transposes_S4x64x14_S4x14x64_0_2_1 (ix3 k d j) (ix3 k j d) (fun b => match b with
    | ⟨0, _⟩ => rfl
    | ⟨1, _⟩ => rfl
    | ⟨2, _⟩ => rfl)

/-- The zero block is the extended real 0 everywhere. -/
theorem zeros_apply (i : S4x14x64.Idx) :
    broadcastInDim S4x14x64 ![] bcast_S_S4x14x64 (constant (F := Ideal) S_ .f32 0x00000000#32) i = (0 : EReal) :=
  (broadcastInDim_apply ![] bcast_S_S4x14x64 (constant (F := Ideal) S_ .f32 0x00000000#32) i ix0 (fun a => a.elim0)).trans
    Ideal.ofBits_zero_f32

/-- The fused matrix as the program builds it from the stacked maps. -/
def fusedMatrix (W : S4x64x14.Idx → Elt Ideal .f32) : S28x512.Idx → Elt Ideal .f32 :=
  shapeCast S28x512
    (transpose S28x4x128 [1, 0, 2]
      (concatenate S4x28x128 1
        [⟨S4x14x128, concatenate S4x14x128 2
            [⟨S4x14x64, transpose S4x14x64 [0, 2, 1] W transposes_S4x64x14_S4x14x64_0_2_1⟩,
              ⟨S4x14x64, broadcastInDim S4x14x64 ![] bcast_S_S4x14x64 (constant (F := Ideal) S_ .f32 0x00000000#32)⟩]
            concatenates_S4x14x64_S4x14x64_S4x14x128_d2⟩,
          ⟨S4x14x128, concatenate S4x14x128 2
            [⟨S4x14x64, broadcastInDim S4x14x64 ![] bcast_S_S4x14x64 (constant (F := Ideal) S_ .f32 0x00000000#32)⟩,
              ⟨S4x14x64, transpose S4x14x64 [0, 2, 1] W transposes_S4x64x14_S4x14x64_0_2_1⟩]
            concatenates_S4x14x64_S4x14x64_S4x14x128_d2⟩]
        concatenates_S4x14x128_S4x14x128_S4x28x128_d1)
      transposes_S4x28x128_S28x4x128_1_0_2)
    shapeCasts_S28x4x128_S28x512

/-- On a lane's own half the fused matrix holds the map's entry. -/
theorem fusedMatrix_diag (W : S4x64x14.Idx → Elt Ideal .f32) (k : Fin 4) (h : Fin 2) (d : Fin 14) (j : Fin 64) :
    fusedMatrix W (ix2 (pairIn h d) (fusedCol k (pairLane h j))) = W (ix3 k j d) := by
  have h01 : h = 0 ∨ h = 1 := by
    match h with
    | ⟨0, _⟩ => exact Or.inl rfl
    | ⟨1, _⟩ => exact Or.inr rfl
  unfold fusedMatrix
  rw [merged_apply]
  rcases h01 with rfl | rfl
  · rw [rows_fst, lanes_fst, mapT_apply]
  · rw [rows_snd, lanes_snd, mapT_apply]

/-- On the other half it holds zero. -/
theorem fusedMatrix_off (W : S4x64x14.Idx → Elt Ideal .f32) (k : Fin 4) (h h' : Fin 2) (d : Fin 14) (j : Fin 64) (hne : h ≠ h') :
    fusedMatrix W (ix2 (pairIn h d) (fusedCol k (pairLane h' j))) = (0 : EReal) := by
  have h01 : (h = 0 ∧ h' = 1) ∨ (h = 1 ∧ h' = 0) := by
    match h, h', hne with
    | ⟨0, _⟩, ⟨0, _⟩, hne => exact absurd rfl hne
    | ⟨0, _⟩, ⟨1, _⟩, _ => exact Or.inl ⟨rfl, rfl⟩
    | ⟨1, _⟩, ⟨0, _⟩, _ => exact Or.inr ⟨rfl, rfl⟩
    | ⟨1, _⟩, ⟨1, _⟩, hne => exact absurd rfl hne
  unfold fusedMatrix
  rw [merged_apply]
  rcases h01 with ⟨rfl, rfl⟩ | ⟨rfl, rfl⟩
  · rw [rows_fst, lanes_snd, zeros_apply]
  · rw [rows_snd, lanes_fst, zeros_apply]

/-- The fused bias as the program builds it. -/
def fusedBias (b : S4x64.Idx → Elt Ideal .f32) : S1x512.Idx → Elt Ideal .f32 :=
  shapeCast S1x512 (concatenate S4x128 1 [⟨S4x64, b⟩, ⟨S4x64, b⟩] concatenates_S4x64_S4x64_S4x128_d1) shapeCasts_S4x128_S1x512

/-- The fused bias at column 128k + 64h + j is b[k, j]. -/
theorem fusedBias_apply (b : S4x64.Idx → Elt Ideal .f32) (k : Fin 4) (h : Fin 2) (j : Fin 64) :
    fusedBias b (ix2 0 (fusedCol k (pairLane h j))) = b (ix2 k j) := by
  have h01 : h = 0 ∨ h = 1 := by
    match h with
    | ⟨0, _⟩ => exact Or.inl rfl
    | ⟨1, _⟩ => exact Or.inr rfl
  unfold fusedBias
  refine (shapeCast_apply _ shapeCasts_S4x128_S1x512 (ix2 0 (fusedCol k (pairLane h j))) (ix2 k (pairLane h j)) (by
    rewrite [Shape.rowMajor_val_two, Shape.rowMajor_val_two]
    have := k.isLt; have := h.isLt; have := j.isLt
    show k.val * 128 + (64 * h.val + j.val) = 0 * 512 + (128 * k.val + (64 * h.val + j.val)); omega)).trans ?_
  rcases h01 with rfl | rfl
  · exact bias_fst b b k j
  · exact bias_snd b b k j

/-! ## What the region finds -/

variable (m : (ℓ : Loc nD τ sig) → Buf (Elt Ideal) ℓ)

theorem found_rows (c : Dev nD) : (V m c main_v0 : S1048576x28.Idx → Elt Ideal .f32)
    = shapeCast S1048576x28 (m ((c : Thread nD τ).loc main_arg0) : S2097152x14.Idx → Elt Ideal .f32) shapeCasts_S2097152x14_S1048576x28 := by
  show StableHlo.after hostOps0 (fun b => m (c, b)) (Proc.devRef .tc main_v0) = _
  after_results
  rfl

theorem found_ids (c : Dev nD) : (V m c main_v1 : S1048576x2.Idx → Elt Ideal .i32)
    = shapeCast S1048576x2 (m ((c : Thread nD τ).loc main_arg1) : S2097152.Idx → Elt Ideal .i32) shapeCasts_S2097152_S1048576x2 := by
  show StableHlo.after hostOps0 (fun b => m (c, b)) (Proc.devRef .tc main_v1) = _
  after_results
  rfl

theorem found_matrix (c : Dev nD) : (V m c main_v8 : S28x512.Idx → Elt Ideal .f32)
    = fusedMatrix (m ((c : Thread nD τ).loc main_arg2) : S4x64x14.Idx → Elt Ideal .f32) := by
  show StableHlo.after hostOps0 (fun b => m (c, b)) (Proc.devRef .tc main_v8) = _
  after_results
  rfl

theorem found_bias (c : Dev nD) : (V m c main_v10 : S1x512.Idx → Elt Ideal .f32)
    = fusedBias (m ((c : Thread nD τ).loc main_arg3) : S4x64.Idx → Elt Ideal .f32) := by
  show StableHlo.after hostOps0 (fun b => m (c, b)) (Proc.devRef .tc main_v10) = _
  after_results
  rfl

end Cert.Route.Prefix

end
-- ==== Proof.KernelRun.lean ====
/-
  The idealized kernel's run, read: its result is the plain form of the routing of its four arguments.

  After the region one reshape un-pairs the output: row 2p + h, column j of the result is row p, lane 64h + j of the
  region's array. That array holds the pair-packed form of the re-laid arguments (Blocks.lean), the re-laid arguments
  are what Prefix.lean says, and the law of Spec.lean turns the packed form at (p, 64h + j) into the plain form at
  (2p + h, j).
-/
import proofs.«105915_j59957743452495_2_alg».proof.Proof.Blocks
import proofs.«105915_j59957743452495_2_alg».proof.Proof.Prefix
import Idealize.ShloMosaic.Lib.StableHlo.Run

noncomputable section

open Idealize.ShloMosaic Idealize.ShloMosaic.TcCoe Idealize.SL.Sem Idealize.ShloMosaic.StableHlo Idealize.ShloMosaic.ValueIdx

namespace Cert.Route.KernelRun

open Cert.KernelIdeal Cert.KernelIdeal.Gen Cert.Route

variable (m : (ℓ : Loc nD τ sig) → Buf (Elt Ideal) ℓ) (ρ : Dev nD → PrngReg)

/-- What the last host operation leaves in the result buffer: the region's array, un-paired. -/
theorem tail_eq (c : Dev nD) :
    (Pipeline.afterTail₀ cfgs (dats m) 0 (V0 m) [hostOps1] c main_v12 : S2097152x64.Idx → Elt Ideal .f32)
      = shapeCast S2097152x64 (Blocks.regionResult m c) shapeCasts_S1048576x128_S2097152x64 := by
  have e : Pipeline.withArrays (cfgs 0).spec c (V0 m c) (fun w => (dats m 0 c).arrAt w (cfgs 0).N) (Proc.devRef .tc main_v11)
      = Blocks.regionResult m c :=
    (Pipeline.withArrays_arr spec0 launch0.win.arr_inj c _ _ 4).trans (Blocks.region_final m c)
  unfold Pipeline.afterTail₀
  show StableHlo.after hostOps1 _ (Proc.devRef .tc main_v12) = _
  after_results
  rw [e]
  rfl

/-- The un-paired packed form of the re-laid arguments is the plain form of the arguments. -/
theorem result_eq_route (c : Dev nD) :
    shapeCast S2097152x64 (Blocks.regionResult m c) shapeCasts_S1048576x128_S2097152x64
      = route (m ((c : Thread nD τ).loc main_arg0) : S2097152x14.Idx → Elt Ideal .f32) (m ((c : Thread nD τ).loc main_arg1) : S2097152.Idx → Elt Ideal .i32) (m ((c : Thread nD τ).loc main_arg2) : S4x64x14.Idx → Elt Ideal .f32) (m ((c : Thread nD τ).loc main_arg3) : S4x64.Idx → Elt Ideal .f32) := by
  funext i
  obtain ⟨r, j, rfl⟩ : ∃ (r : Fin 2097152) (j : Fin 64), i = ix2 r j := ⟨i 0, i 1, eq_ix2 i⟩
  have hr : r.val < 2097152 := r.isLt
  obtain ⟨p, h, rfl⟩ : ∃ (p : Fin 1048576) (h : Fin 2), r = pairRow p h :=
    ⟨⟨r.val / 2, by omega⟩, ⟨r.val % 2, by omega⟩, Fin.ext (by show r.val = 2 * (r.val / 2) + r.val % 2; omega)⟩
  refine (shapeCast_apply _ shapeCasts_S1048576x128_S2097152x64 (ix2 (pairRow p h) j) (ix2 p (pairLane h j)) (by
    rewrite [Shape.rowMajor_val_two, Shape.rowMajor_val_two]
    have := p.isLt; have := h.isLt; have := j.isLt
    show p.val * 128 + (64 * h.val + j.val) = (2 * p.val + h.val) * 64 + j.val; omega)).trans ?_
  show packed (V m c main_v0 : S1048576x28.Idx → Elt Ideal .f32) (V m c main_v1 : S1048576x2.Idx → Elt Ideal .i32)
    (V m c main_v8 : S28x512.Idx → Elt Ideal .f32) (V m c main_v10 : S1x512.Idx → Elt Ideal .f32) (ix2 p (pairLane h j)) = _
  rw [Prefix.found_rows, Prefix.found_ids, Prefix.found_matrix, Prefix.found_bias]
  exact packed_eq_route _ _ _ _ _ _ _ _
    (fun p h d => Prefix.pairedRows_apply _ p h d) (fun p h => Prefix.pairedIds_apply _ p h)
    (fun k h d j => Prefix.fusedMatrix_diag _ k h d j) (fun k h h' d j hne => Prefix.fusedMatrix_off _ k h h' d j hne)
    (fun k h j => Prefix.fusedBias_apply _ k h j) p h j

/-- THE RUN, READ: every weakly fair execution of the idealized kernel terminates with its result buffer at the plain
    form of the routing of its arguments, and its arguments unchanged. -/
theorem run : θ_run defs (onTc (τ := τ) (main (F := Ideal))) ⟨m, fun _ => 0, ρ⟩ fun r => ∀ c : Dev nD,
      r.2.mem ((c.tc : Thread nD τ).loc main_v12) = route (m ((c.tc : Thread nD τ).loc main_arg0) : S2097152x14.Idx → Elt Ideal .f32) (m ((c.tc : Thread nD τ).loc main_arg1) : S2097152.Idx → Elt Ideal .i32) (m ((c.tc : Thread nD τ).loc main_arg2) : S4x64x14.Idx → Elt Ideal .f32) (m ((c.tc : Thread nD τ).loc main_arg3) : S4x64.Idx → Elt Ideal .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨(((h c).2 main_v12 (Pipeline.mem_restRefs_of main_v12 (by decide) (by decide))).trans (tail_eq m c)).trans (result_eq_route m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.Route.KernelRun

end
-- ==== Proof.RefRoute.lean ====
/-
  The reference program computes the plain form of the routing (Spec.lean's route), index by index.

  For each map k the reference slices W[k] and b[k] out of the stacked parameters, transposes, multiplies every row
  of x by it, adds the bias along the rows, and keeps the result where ids = k over what the earlier maps left.
  Read at (r, j): the slice, the reshape that drops its unit axis and the transpose compose to W[k, j, d]; the
  bias's slice, reshape and two broadcasts to b[k, j]; the comparison's two broadcasts to the word ids[r].
-/
import proofs.«105915_j59957743452495_2_alg».proof.Proof.Gen.ReferenceIdeal.Read
import proofs.«105915_j59957743452495_2_alg».proof.Proof.Spec

noncomputable section

open Idealize.ShloMosaic Idealize.ShloMosaic.ValueIdx
open scoped BigOperators

namespace Cert.Route.Ref

open Cert.ReferenceIdeal Cert.ReferenceIdeal.Read Cert.Route

/-- Map 0 of the reference at (r, j): the sum over the 14 features of x[r, d] · W[0, j, d], plus b[0, j]. -/
theorem stage0 (x0 : (⟨S2097152x14, .f32⟩ : BufTy).Contents (Elt Ideal)) (x2 : (⟨S4x64x14, .f32⟩ : BufTy).Contents (Elt Ideal)) (x3 : (⟨S4x64, .f32⟩ : BufTy).Contents (Elt Ideal)) (r : Fin 2097152) (j : Fin 64) :
    val_main_v9 (F := Ideal) x0 x2 x3 (ix2 r j) = expert x0 x2 x3 r j 0 := by
  rw [val_main_v9_apply, val_main_v4_apply, val_main_v8_apply, val_main_v7_apply, val_main_v6_apply, val_main_v5_apply]
  unfold expert
  show (∑ d : Fin 14, _) + _ = _
  congr 1
  · refine Finset.sum_congr rfl fun d _ => ?_
    rw [val_main_v3_apply, val_main_v2_apply, val_main_v1_apply]
    congr 1
    · refine congrArg x0 (funext fun a => Fin.ext ?_)
      match a with
      | ⟨0, _⟩ => rfl
      | ⟨1, _⟩ => rfl
    · refine congrArg x2 (funext fun a => Fin.ext ?_)
      have hj : j.val < 64 := j.isLt
      have hd : d.val < 14 := d.isLt
      match a with
      | ⟨0, _⟩ => show 0 + 0 = 0; rfl
      | ⟨1, _⟩ => show (j.val * 14 + d.val) / 14 % 64 = j.val; omega
      | ⟨2, _⟩ => show (j.val * 14 + d.val) % 14 = d.val; omega
  · refine congrArg x3 (funext fun a => Fin.ext ?_)
    have hj : j.val < 64 := j.isLt
    match a with
    | ⟨0, _⟩ => show 0 + 0 = 0; rfl
    | ⟨1, _⟩ => show j.val % 64 = j.val; omega

/-- The reference's mask for map 0 at (r, j): whether the word ids[r] is 0. -/
theorem cond0 (x1 : (⟨S2097152, .i32⟩ : BufTy).Contents (Elt Ideal)) (r : Fin 2097152) (j : Fin 64) :
    val_main_call0_v0 (F := Ideal) x1 (ix2 r j) = IntOp.cmpi .eq (x1 (ix1 r)) 0#32 := by
  rw [val_main_call0_v0_apply, val_main_v12_apply, val_main_v11_apply, val_main_v10_apply, val_main_c_apply]
  refine congrArg (fun w => IntOp.cmpi .eq (x1 w) 0#32) (funext fun a => Fin.ext ?_)
  match a with
  | ⟨0, _⟩ => rfl

/-- Map 1 of the reference at (r, j): the sum over the 14 features of x[r, d] · W[1, j, d], plus b[1, j]. -/
theorem stage1 (x0 : (⟨S2097152x14, .f32⟩ : BufTy).Contents (Elt Ideal)) (x2 : (⟨S4x64x14, .f32⟩ : BufTy).Contents (Elt Ideal)) (x3 : (⟨S4x64, .f32⟩ : BufTy).Contents (Elt Ideal)) (r : Fin 2097152) (j : Fin 64) :
    val_main_v22 (F := Ideal) x0 x2 x3 (ix2 r j) = expert x0 x2 x3 r j 1 := by
  rw [val_main_v22_apply, val_main_v17_apply, val_main_v21_apply, val_main_v20_apply, val_main_v19_apply, val_main_v18_apply]
  unfold expert
  show (∑ d : Fin 14, _) + _ = _
  congr 1
  · refine Finset.sum_congr rfl fun d _ => ?_
    rw [val_main_v16_apply, val_main_v15_apply, val_main_v14_apply]
    congr 1
    · refine congrArg x0 (funext fun a => Fin.ext ?_)
      match a with
      | ⟨0, _⟩ => rfl
      | ⟨1, _⟩ => rfl
    · refine congrArg x2 (funext fun a => Fin.ext ?_)
      have hj : j.val < 64 := j.isLt
      have hd : d.val < 14 := d.isLt
      match a with
      | ⟨0, _⟩ => show 1 + 0 = 1; rfl
      | ⟨1, _⟩ => show (j.val * 14 + d.val) / 14 % 64 = j.val; omega
      | ⟨2, _⟩ => show (j.val * 14 + d.val) % 14 = d.val; omega
  · refine congrArg x3 (funext fun a => Fin.ext ?_)
    have hj : j.val < 64 := j.isLt
    match a with
    | ⟨0, _⟩ => show 1 + 0 = 1; rfl
    | ⟨1, _⟩ => show j.val % 64 = j.val; omega

/-- The reference's mask for map 1 at (r, j): whether the word ids[r] is 1. -/
theorem cond1 (x1 : (⟨S2097152, .i32⟩ : BufTy).Contents (Elt Ideal)) (r : Fin 2097152) (j : Fin 64) :
    val_main_call1_v0 (F := Ideal) x1 (ix2 r j) = IntOp.cmpi .eq (x1 (ix1 r)) 1#32 := by
  rw [val_main_call1_v0_apply, val_main_v25_apply, val_main_v24_apply, val_main_v23_apply, val_main_c_0_apply]
  refine congrArg (fun w => IntOp.cmpi .eq (x1 w) 1#32) (funext fun a => Fin.ext ?_)
  match a with
  | ⟨0, _⟩ => rfl

/-- Map 2 of the reference at (r, j): the sum over the 14 features of x[r, d] · W[2, j, d], plus b[2, j]. -/
theorem stage2 (x0 : (⟨S2097152x14, .f32⟩ : BufTy).Contents (Elt Ideal)) (x2 : (⟨S4x64x14, .f32⟩ : BufTy).Contents (Elt Ideal)) (x3 : (⟨S4x64, .f32⟩ : BufTy).Contents (Elt Ideal)) (r : Fin 2097152) (j : Fin 64) :
    val_main_v35 (F := Ideal) x0 x2 x3 (ix2 r j) = expert x0 x2 x3 r j 2 := by
  rw [val_main_v35_apply, val_main_v30_apply, val_main_v34_apply, val_main_v33_apply, val_main_v32_apply, val_main_v31_apply]
  unfold expert
  show (∑ d : Fin 14, _) + _ = _
  congr 1
  · refine Finset.sum_congr rfl fun d _ => ?_
    rw [val_main_v29_apply, val_main_v28_apply, val_main_v27_apply]
    congr 1
    · refine congrArg x0 (funext fun a => Fin.ext ?_)
      match a with
      | ⟨0, _⟩ => rfl
      | ⟨1, _⟩ => rfl
    · refine congrArg x2 (funext fun a => Fin.ext ?_)
      have hj : j.val < 64 := j.isLt
      have hd : d.val < 14 := d.isLt
      match a with
      | ⟨0, _⟩ => show 2 + 0 = 2; rfl
      | ⟨1, _⟩ => show (j.val * 14 + d.val) / 14 % 64 = j.val; omega
      | ⟨2, _⟩ => show (j.val * 14 + d.val) % 14 = d.val; omega
  · refine congrArg x3 (funext fun a => Fin.ext ?_)
    have hj : j.val < 64 := j.isLt
    match a with
    | ⟨0, _⟩ => show 2 + 0 = 2; rfl
    | ⟨1, _⟩ => show j.val % 64 = j.val; omega

/-- The reference's mask for map 2 at (r, j): whether the word ids[r] is 2. -/
theorem cond2 (x1 : (⟨S2097152, .i32⟩ : BufTy).Contents (Elt Ideal)) (r : Fin 2097152) (j : Fin 64) :
    val_main_call2_v0 (F := Ideal) x1 (ix2 r j) = IntOp.cmpi .eq (x1 (ix1 r)) 2#32 := by
  rw [val_main_call2_v0_apply, val_main_v38_apply, val_main_v37_apply, val_main_v36_apply, val_main_c_1_apply]
  refine congrArg (fun w => IntOp.cmpi .eq (x1 w) 2#32) (funext fun a => Fin.ext ?_)
  match a with
  | ⟨0, _⟩ => rfl

/-- Map 3 of the reference at (r, j): the sum over the 14 features of x[r, d] · W[3, j, d], plus b[3, j]. -/
theorem stage3 (x0 : (⟨S2097152x14, .f32⟩ : BufTy).Contents (Elt Ideal)) (x2 : (⟨S4x64x14, .f32⟩ : BufTy).Contents (Elt Ideal)) (x3 : (⟨S4x64, .f32⟩ : BufTy).Contents (Elt Ideal)) (r : Fin 2097152) (j : Fin 64) :
    val_main_v48 (F := Ideal) x0 x2 x3 (ix2 r j) = expert x0 x2 x3 r j 3 := by
  rw [val_main_v48_apply, val_main_v43_apply, val_main_v47_apply, val_main_v46_apply, val_main_v45_apply, val_main_v44_apply]
  unfold expert
  show (∑ d : Fin 14, _) + _ = _
  congr 1
  · refine Finset.sum_congr rfl fun d _ => ?_
    rw [val_main_v42_apply, val_main_v41_apply, val_main_v40_apply]
    congr 1
    · refine congrArg x0 (funext fun a => Fin.ext ?_)
      match a with
      | ⟨0, _⟩ => rfl
      | ⟨1, _⟩ => rfl
    · refine congrArg x2 (funext fun a => Fin.ext ?_)
      have hj : j.val < 64 := j.isLt
      have hd : d.val < 14 := d.isLt
      match a with
      | ⟨0, _⟩ => show 3 + 0 = 3; rfl
      | ⟨1, _⟩ => show (j.val * 14 + d.val) / 14 % 64 = j.val; omega
      | ⟨2, _⟩ => show (j.val * 14 + d.val) % 14 = d.val; omega
  · refine congrArg x3 (funext fun a => Fin.ext ?_)
    have hj : j.val < 64 := j.isLt
    match a with
    | ⟨0, _⟩ => show 3 + 0 = 3; rfl
    | ⟨1, _⟩ => show j.val % 64 = j.val; omega

/-- The reference's mask for map 3 at (r, j): whether the word ids[r] is 3. -/
theorem cond3 (x1 : (⟨S2097152, .i32⟩ : BufTy).Contents (Elt Ideal)) (r : Fin 2097152) (j : Fin 64) :
    val_main_call3_v0 (F := Ideal) x1 (ix2 r j) = IntOp.cmpi .eq (x1 (ix1 r)) 3#32 := by
  rw [val_main_call3_v0_apply, val_main_v51_apply, val_main_v50_apply, val_main_v49_apply, val_main_c_2_apply]
  refine congrArg (fun w => IntOp.cmpi .eq (x1 w) 3#32) (funext fun a => Fin.ext ?_)
  match a with
  | ⟨0, _⟩ => rfl

/-- The reference's result, as one function of its four arguments, is the plain form of the routing. -/
theorem result_eq_route (x0 : (⟨S2097152x14, .f32⟩ : BufTy).Contents (Elt Ideal)) (x1 : (⟨S2097152, .i32⟩ : BufTy).Contents (Elt Ideal)) (x2 : (⟨S4x64x14, .f32⟩ : BufTy).Contents (Elt Ideal)) (x3 : (⟨S4x64, .f32⟩ : BufTy).Contents (Elt Ideal)) :
    val_main_v52 (F := Ideal) x0 x1 x2 x3 = route x0 x1 x2 x3 := by
  funext i
  obtain ⟨r, j, rfl⟩ : ∃ (r : Fin 2097152) (j : Fin 64), i = ix2 r j := ⟨i 0, i 1, eq_ix2 i⟩
  rw [val_main_v52_apply, val_main_v39_apply, val_main_v26_apply, val_main_v13_apply, cond3, cond2, cond1, cond0,
    stage3, stage2, stage1, stage0, val_main_v0_apply, val_main_cst_apply]
  have hz : (FloatOps.ofBits (F := Ideal) .f32 0x00000000#32 : EReal) = 0 := Ideal.ofBits_zero_f32
  rw [hz]
  rfl

end Cert.Route.Ref

end
-- ==== Proof.lean ====
/-
  Per-row routing among four small linear maps: the pair-packed kernel against the plain reference.

  The reference computes, for every row i, the value x[i] · W[k]ᵀ + b[k] of the last map k in 0..3 whose number equals
  ids[i], and 0 if none does (four masked selects, the later maps winning). The kernel packs two consecutive rows
  into one 28-wide input row and one 128-lane output row, multiplies by ONE 28 × 512 block-diagonal matrix that holds all
  four maps, and selects per lane among the four 128-lane slabs by the id of the lane's own row; a last reshape un-pairs
  the output. On the extended reals both are one function of the arguments: the fused product's 28-term sum is the
  row's own 14-term sum plus fourteen products with the zero padding, and a product with zero is zero for every
  extended real, so the equality holds with no use of the inputs' finiteness; the casts to bf16 around the product are
  the identity at the ideal values.

  The modules: Spec (the two forms and the law joining them), RefRoute (the reference is the plain form), Body (the
  kernel body's stored value at an index), Prefix (the re-laid arguments the region finds), Blocks (the region's
  output array from its blocks), KernelRun (the kernel's run ends at the plain form). The three frames are the
  generated frame runs; the idealization rewrote nothing, so the kernel's idealized text is its own text read at the
  ideal values.
-/
import proofs.«105915_j59957743452495_2_alg».proof.Defs
import proofs.«105915_j59957743452495_2_alg».proof.Proof.Gen.Kernel
import proofs.«105915_j59957743452495_2_alg».proof.Proof.Gen.Kernel.Skeleton
import proofs.«105915_j59957743452495_2_alg».proof.Proof.Gen.Kernel.Launch
import proofs.«105915_j59957743452495_2_alg».proof.Proof.Gen.Kernel.Points
import proofs.«105915_j59957743452495_2_alg».proof.Proof.Gen.Kernel.Frame
import proofs.«105915_j59957743452495_2_alg».proof.Proof.Gen.KernelIdeal
import proofs.«105915_j59957743452495_2_alg».proof.Proof.Gen.KernelIdeal.Skeleton
import proofs.«105915_j59957743452495_2_alg».proof.Proof.Gen.KernelIdeal.Launch
import proofs.«105915_j59957743452495_2_alg».proof.Proof.Gen.KernelIdeal.Points
import proofs.«105915_j59957743452495_2_alg».proof.Proof.Gen.KernelIdeal.Frame
import proofs.«105915_j59957743452495_2_alg».proof.Proof.Gen.ReferenceIdeal
import proofs.«105915_j59957743452495_2_alg».proof.Proof.Gen.ReferenceIdeal.Run
import proofs.«105915_j59957743452495_2_alg».proof.Proof.Gen.ReferenceIdeal.Read
import proofs.«105915_j59957743452495_2_alg».proof.Proof.Gen.Pre_finite_inputs
import proofs.«105915_j59957743452495_2_alg».proof.Proof.KernelRun
import proofs.«105915_j59957743452495_2_alg».proof.Proof.RefRoute
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and keeps its arguments: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments, the kernel's result and the reference's are both the plain form of the
    routing of those arguments. -/
theorem algebraic : Cert.algebraic_KernelIdeal_ReferenceIdeal := by
  intro m ρ m' ρ' _ hagree
  refine ⟨_, Cert.Route.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v52_eq _ _ _ _).trans (Cert.Route.Ref.result_eq_route _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
